-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S64x128 : Shape := ⟨2, ![64, 128]⟩
abbrev S64 : Shape := ⟨1, ![64]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x2048x128 .f32) (main_arg1 : FVec F S64x128 .f32) (main_arg2 : FVec F S64 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x2048x128 : Shape := ⟨3, ![8, 2048, 128]⟩
abbrev S64x128 : Shape := ⟨2, ![64, 128]⟩
abbrev S64 : Shape := ⟨1, ![64]⟩
abbrev S1x64 : Shape := ⟨2, ![1, 64]⟩
abbrev S8x2048x2048 : Shape := ⟨3, ![8, 2048, 2048]⟩
abbrev S8x2048x64 : Shape := ⟨3, ![8, 2048, 64]⟩
abbrev S1x2048x128 : Shape := ⟨3, ![1, 2048, 128]⟩
abbrev S1x512x2048 : Shape := ⟨3, ![1, 512, 2048]⟩
abbrev S1x512x64 : Shape := ⟨3, ![1, 512, 64]⟩
abbrev S2048x128 : Shape := ⟨2, ![2048, 128]⟩
abbrev S2048x64 : Shape := ⟨2, ![2048, 64]⟩
abbrev S1x512x128 : Shape := ⟨3, ![1, 512, 128]⟩
abbrev S512x128 : Shape := ⟨2, ![512, 128]⟩
abbrev S512x64 : Shape := ⟨2, ![512, 64]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8x2048x128, .f32⟩
  | .hbm, ⟨1, _⟩ => ⟨S64x128, .f32⟩
  | .hbm, ⟨2, _⟩ => ⟨S64, .f32⟩
  | .hbm, ⟨3, _⟩ => ⟨S1x64, .f32⟩
  | .hbm, ⟨4, _⟩ => ⟨S8x2048x2048, .f32⟩
  | .hbm, ⟨5, _⟩ => ⟨S8x2048x64, .f32⟩
  | .local _ .vmem, ⟨0, _⟩ => ⟨S1x2048x128, .f32⟩
  | .local _ .vmem, ⟨1, _⟩ => ⟨S1x2048x128, .f32⟩
  | .local _ .vmem, ⟨2, _⟩ => ⟨S64x128, .f32⟩
  | .local _ .vmem, ⟨3, _⟩ => ⟨S1x64, .f32⟩
  | .local _ .vmem, ⟨4, _⟩ => ⟨S1x512x2048, .f32⟩
  | .local _ .vmem, ⟨5, _⟩ => ⟨S1x512x2048, .f32⟩
  | .local _ .vmem, ⟨6, _⟩ => ⟨S1x512x64, .f32⟩
  | .local _ .vmem, ⟨7, _⟩ => ⟨S1x512x64, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0_6 : Index := 0#32
  let arg1 : BitVec 32 := BitVec.ofNat 32 (i 1).val
  let c512_i32 : BitVec 32 := 512#32
  let v0 : BitVec 32 := Scalar.muli arg1 c512_i32
  let v1 : BitVec 32 := v0
  let v13 : Index := Scalar.indexCast v1
  let c0_7 : Index := 0#32
  ![0, v13.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S64_S1x64 : S64.ShapeCasts S1x64
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  broadcasts_S1x64_S2048x64 : S1x64.Broadcasts S2048x64
  h_S1x512x128 : 0 < S1x512x128.numel
  shapeCasts_S1x512x128_S512x128 : S1x512x128.ShapeCasts S512x128
  broadcasts_S1x64_S512x64 : S1x64.Broadcasts S512x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S2048x128_S64x128_S2048x64_1_1_0_0_n_n_wf : DotDims.WF S2048x128 S64x128 S2048x64 [1] [1] [0] [0] [] []
  dot_S512x128_S64x128_S512x64_1_1_0_0_n_n_wf : DotDims.WF S512x128 S64x128 S512x64 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S8x2048x64.size a
  hwx0_4 : ∀ i : grid0.Coords, EltTy.bits .f32 = 32 ∨ (Rect.block (s := S8x2048x64) S1x512x64.size (cc0_transform_4 i) (hinb0_4 i)).WholeWords (EltTy.packing .f32)

variable [Facts₀]

def dot_S2048x128_S64x128_S2048x64_1_1_0_0_n_n : DotDims S2048x128 S64x128 S2048x64 where
  lhsContracting := [1]
  rhsContracting := [1]
  lhsNonContracting := [0]
  rhsNonContracting := [0]
  lhsBatch := []
  rhsBatch := []
  wf := dot_S2048x128_S64x128_S2048x64_1_1_0_0_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x512x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S64x128 : Shape := ⟨2, ![64, 128]⟩
abbrev S64 : Shape := ⟨1, ![64]⟩
abbrev S8x2048x64 : Shape := ⟨3, ![8, 2048, 64]⟩
abbrev S1x1x64 : Shape := ⟨3, ![1, 1, 64]⟩
abbrev S8x2048x2048 : Shape := ⟨3, ![8, 2048, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S64x128, .f32⟩
  | .hbm, ⟨2, _⟩ => ⟨S64, .f32⟩
  | .hbm, ⟨3, _⟩ => ⟨S8x2048x64, .f32⟩
  | .hbm, ⟨4, _⟩ => ⟨S1x1x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x64, .f32⟩
  | .hbm, ⟨13, _⟩ => ⟨S_, .f32⟩
  | .hbm, ⟨14, _⟩ => ⟨S8x2048x64, .f32⟩
  | .hbm, ⟨15, _⟩ => ⟨S8x2048x64, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  bcast_S_S8x2048x2048 : S_.BroadcastsInDim S8x2048x2048 (![] : Fin 0 → Fin S8x2048x2048.rank)
  bcast_S_S8x2048x64 : S_.BroadcastsInDim S8x2048x64 (![] : Fin 0 → Fin S8x2048x64.rank)
  dot_S8x2048x128_S64x128_S8x2048x64_2_1_01_0_n_n_wf : DotDims.WF S8x2048x128 S64x128 S8x2048x64 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x128_S64x128_S8x2048x64_2_1_01_0_n_n : DotDims S8x2048x128 S64x128 S8x2048x64 where
  lhsContracting := [2]
  rhsContracting := [1]
  lhsNonContracting := [0, 1]
  rhsNonContracting := [0]
  lhsBatch := []
  rhsBatch := []
  wf := dot_S8x2048x128_S64x128_S8x2048x64_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KernelStores.lean ====
/-
  What one grid point's body leaves in its two output staging buffers, as values of the staging buffers' contents.

  At grid point (batch p, tile q) the body holds the batch's whole input block (2048 rows), the weights and the bias, and
  reads the tile's 512 query rows out of the same input block. It stores once into each output buffer, covering it: the
  gates of the 512 query rows against all 2048 rows, and the means of the same rows. So each buffer ends holding exactly
  that store's value, a pure function of the three input buffers' contents, for any float instance.
-/
import proofs.«130392_j43379169689769_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Stores

open Cert.KernelIdeal Cert.KernelIdeal.Gen

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The 512 query rows the body reads out of the batch's 2048 input rows at grid point `i`. -/
abbrev queryRows (i : grid0.Coords) (x0 : Vec F S1x2048x128 .f32) : Vec F S1x512x128 .f32 :=
  View.ld x0 (Rect.unit (s := S1x2048x128) (k0_off1 i) S1x512x128.size (k0_off1_inb i))

/-- What the body leaves in the first output's staging buffer: its one covering store's payload, the gates of the
    point's 512 query rows against all 2048 rows, of the buffers' contents. -/
theorem gates_stored (c : Dev nD) (i : grid0.Coords)
    (a2 : Memref sig .tc .vmem S1x2048x128 .f32) (h2 : a2.IsWhole) (a3 : Memref sig .tc .vmem S64x128 .f32) (h3 : a3.IsWhole)
    (a4 : Memref sig .tc .vmem S1x64 .f32) (h4 : a4.IsWhole) (a5 : Memref sig .tc .vmem S1x512x2048 .f32) (h5 : a5.IsWhole)
    (a6 : Memref sig .tc .vmem S1x512x64 .f32) (h6 : a6.IsWhole)
    (x0 : Vec F S1x2048x128 .f32) (x1 : Vec F S64x128 .f32) (x2 : Vec F S1x64 .f32) :
    out0_A_3 c i a2 h2 a3 h3 a4 h4 a5 h5 a6 h6 x0 x1 x2 = k0_pay5 x1 x2 x0 (queryRows i x0) := by
  unfold out0_A_3
  rw [View.read_writes_eq_canon _ _ _ (cover0_A_3 c i a2 h2 a3 h3 a4 h4 a5 h5 a6 h6 x0 x1 x2)]
  unfold kernelRun0_A
  dsimp only
  rw [View.canon_unit_zero zeros3]
  simp only [View.readAt_eq_ld, h2.read_unread, h3.read_unread, h4.read_unread, View.ld_unit_zero (S := S64x128) zeros2,
    View.ld_unit_zero (S := S1x64) zeros2, View.ld_unit_zero (S := S1x2048x128) zeros3]

/-- What it leaves in the second output's staging buffer: the payload of its last store, the means of the same rows. -/
theorem means_stored (c : Dev nD) (i : grid0.Coords)
    (a2 : Memref sig .tc .vmem S1x2048x128 .f32) (h2 : a2.IsWhole) (a3 : Memref sig .tc .vmem S64x128 .f32) (h3 : a3.IsWhole)
    (a4 : Memref sig .tc .vmem S1x64 .f32) (h4 : a4.IsWhole) (a5 : Memref sig .tc .vmem S1x512x2048 .f32) (h5 : a5.IsWhole)
    (a6 : Memref sig .tc .vmem S1x512x64 .f32) (h6 : a6.IsWhole)
    (x0 : Vec F S1x2048x128 .f32) (x1 : Vec F S64x128 .f32) (x2 : Vec F S1x64 .f32) :
    out0_A_4 c i a2 h2 a3 h3 a4 h4 a5 h5 a6 h6 x0 x1 x2 = k0_pay6 x1 x2 x0 (queryRows i x0) := by
  unfold out0_A_4
  rw [View.read_writes_eq_canon _ _ _ (cover0_A_4 c i a2 h2 a3 h3 a4 h4 a5 h5 a6 h6 x0 x1 x2)]
  unfold kernelRun0_A
  dsimp only
  sl_unfold_words
  rw [View.canon_unit_zero zeros3]
  simp only [View.readAt_eq_ld, h2.read_unread, h3.read_unread, h4.read_unread, View.ld_unit_zero (S := S64x128) zeros2,
    View.ld_unit_zero (S := S1x64) zeros2, View.ld_unit_zero (S := S1x2048x128) zeros3]
  rfl

end Cert.KernelIdeal.Stores

end
-- ==== Proof.KernelContractions.lean ====
/-
  The body's four matrix products, read at an entry, on the extended reals.

  Each product contracts ONE axis into a block of zeros, so at an entry it is the plain sum, over that axis, of the
  products of the two operands' entries: rows against rows (the contracted axis is the second of both operands) for the
  two feature projections and for the inner products of features, rows against columns for the gate-weighted sum.
-/
import proofs.«130392_j43379169689769_2_alg».proof.Proof.Gen.KernelIdeal
import Idealize.ShloMosaic.PureOps.Ideal.Laws
import Idealize.ShloMosaic.Lib.ValueIdx

noncomputable section

namespace Cert.KernelIdeal.Contract

open Cert.KernelIdeal Cert.KernelIdeal.Gen Idealize.ShloMosaic Idealize.ShloMosaic.ValueIdx

/-- A product that contracts one axis of extent `K` into a zero block is, at an entry, the sum over `k : Fin K` of the
    operands' entries at the positions the dimension numbers name. -/
theorem sum_of_one_axis {sl sr so : Shape} {φ₁ φ₂ : FTy} (d : DotDims sl sr so) (K : Nat) (hr : d.contr.rank = 1)
    (hs : d.contr.size ⟨0, by omega⟩ = K) (l : FVec Ideal sl φ₁) (r : FVec Ideal sr φ₂) (j : so.Idx)
    (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    matmul d none l r (constant so .f32 0x00000000#32) j = ∑ k : Fin K, l (L k) * r (R k) := by
  refine (Ideal.matmul_constant_zero_apply d none l r j).trans ?_
  rw [← Equiv.sum_comp (contrEquiv1 d K hr hs).symm]
  exact Finset.sum_congr rfl fun k _ => by rw [hL k, hR k]

theorem all_rows_row (j : S2048x64.Idx) (q : dot_S2048x128_S64x128_S2048x64_1_1_0_0_n_n.contr.Idx) : (dot_S2048x128_S64x128_S2048x64_1_1_0_0_n_n.lhsIdx j q 0).val = (j 0).val := by
  unfold DotDims.lhsIdx
  rw [dif_neg (show ¬(0 : Fin S2048x128.rank) ∈ dot_S2048x128_S64x128_S2048x64_1_1_0_0_n_n.lhsBatch by decide), dif_pos (show (0 : Fin S2048x128.rank) ∈ dot_S2048x128_S64x128_S2048x64_1_1_0_0_n_n.lhsNonContracting by decide)]
  rfl
theorem all_rows_channel (j : S2048x64.Idx) (q : dot_S2048x128_S64x128_S2048x64_1_1_0_0_n_n.contr.Idx) : (dot_S2048x128_S64x128_S2048x64_1_1_0_0_n_n.rhsIdx j q 0).val = (j 1).val := by
  unfold DotDims.rhsIdx
  rw [dif_neg (show ¬(0 : Fin S64x128.rank) ∈ dot_S2048x128_S64x128_S2048x64_1_1_0_0_n_n.rhsBatch by decide), dif_pos (show (0 : Fin S64x128.rank) ∈ dot_S2048x128_S64x128_S2048x64_1_1_0_0_n_n.rhsNonContracting by decide)]
  rfl

/-- All 2048 rows against the 64 weight rows, over the 128 input channels. -/
theorem all_rows_project {φ₁ φ₂ : FTy} (l : FVec Ideal S2048x128 φ₁) (r : FVec Ideal S64x128 φ₂) (a : Fin 2048) (b : Fin 64) :
    matmul dot_S2048x128_S64x128_S2048x64_1_1_0_0_n_n none l r (constant S2048x64 .f32 0x00000000#32) (ix2 a b) = ∑ k : Fin 128, l (ix2 a k) * r (ix2 b k) :=
  sum_of_one_axis dot_S2048x128_S64x128_S2048x64_1_1_0_0_n_n 128 rfl rfl l r (ix2 a b) (fun k => ix2 a k) (fun k => ix2 b k)
    (fun k => funext fun x => Fin.ext (by
      match x with
      | ⟨0, _⟩ => exact all_rows_row _ _
      | ⟨1, _⟩ => exact ((dot_S2048x128_S64x128_S2048x64_1_1_0_0_n_n.lhsIdx_val_of_single rfl _ _).trans (contrEquiv1_symm_val dot_S2048x128_S64x128_S2048x64_1_1_0_0_n_n 128 rfl rfl k))))
    (fun k => funext fun x => Fin.ext (by
      match x with
      | ⟨0, _⟩ => exact all_rows_channel _ _
      | ⟨1, _⟩ => exact ((dot_S2048x128_S64x128_S2048x64_1_1_0_0_n_n.rhsIdx_val_of_single rfl _ _).trans (contrEquiv1_symm_val dot_S2048x128_S64x128_S2048x64_1_1_0_0_n_n 128 rfl rfl k))))

theorem query_rows_row (j : S512x64.Idx) (q : dot_S512x128_S64x128_S512x64_1_1_0_0_n_n.contr.Idx) : (dot_S512x128_S64x128_S512x64_1_1_0_0_n_n.lhsIdx j q 0).val = (j 0).val := by
  unfold DotDims.lhsIdx
  rw [dif_neg (show ¬(0 : Fin S512x128.rank) ∈ dot_S512x128_S64x128_S512x64_1_1_0_0_n_n.lhsBatch by decide), dif_pos (show (0 : Fin S512x128.rank) ∈ dot_S512x128_S64x128_S512x64_1_1_0_0_n_n.lhsNonContracting by decide)]
  rfl
theorem query_rows_channel (j : S512x64.Idx) (q : dot_S512x128_S64x128_S512x64_1_1_0_0_n_n.contr.Idx) : (dot_S512x128_S64x128_S512x64_1_1_0_0_n_n.rhsIdx j q 0).val = (j 1).val := by
  unfold DotDims.rhsIdx
  rw [dif_neg (show ¬(0 : Fin S64x128.rank) ∈ dot_S512x128_S64x128_S512x64_1_1_0_0_n_n.rhsBatch by decide), dif_pos (show (0 : Fin S64x128.rank) ∈ dot_S512x128_S64x128_S512x64_1_1_0_0_n_n.rhsNonContracting by decide)]
  rfl

/-- The 512 query rows against the 64 weight rows, over the 128 input channels. -/
theorem query_rows_project {φ₁ φ₂ : FTy} (l : FVec Ideal S512x128 φ₁) (r : FVec Ideal S64x128 φ₂) (a : Fin 512) (b : Fin 64) :
    matmul dot_S512x128_S64x128_S512x64_1_1_0_0_n_n none l r (constant S512x64 .f32 0x00000000#32) (ix2 a b) = ∑ k : Fin 128, l (ix2 a k) * r (ix2 b k) :=
  sum_of_one_axis dot_S512x128_S64x128_S512x64_1_1_0_0_n_n 128 rfl rfl l r (ix2 a b) (fun k => ix2 a k) (fun k => ix2 b k)
    (fun k => funext fun x => Fin.ext (by
      match x with
      | ⟨0, _⟩ => exact query_rows_row _ _
      | ⟨1, _⟩ => exact ((dot_S512x128_S64x128_S512x64_1_1_0_0_n_n.lhsIdx_val_of_single rfl _ _).trans (contrEquiv1_symm_val dot_S512x128_S64x128_S512x64_1_1_0_0_n_n 128 rfl rfl k))))
    (fun k => funext fun x => Fin.ext (by
      match x with
      | ⟨0, _⟩ => exact query_rows_channel _ _
      | ⟨1, _⟩ => exact ((dot_S512x128_S64x128_S512x64_1_1_0_0_n_n.rhsIdx_val_of_single rfl _ _).trans (contrEquiv1_symm_val dot_S512x128_S64x128_S512x64_1_1_0_0_n_n 128 rfl rfl k))))

theorem inner_query (j : S512x2048.Idx) (q : dot_S512x64_S2048x64_S512x2048_1_1_0_0_n_n.contr.Idx) : (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem inner_other (j : S512x2048.Idx) (q : dot_S512x64_S2048x64_S512x2048_1_1_0_0_n_n.contr.Idx) : (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl

/-- The query rows' features against all rows' features, over the 64 channels. -/
theorem inner_products {φ₁ φ₂ : FTy} (l : FVec Ideal S512x64 φ₁) (r : FVec Ideal S2048x64 φ₂) (a : Fin 512) (b : Fin 2048) :
    matmul dot_S512x64_S2048x64_S512x2048_1_1_0_0_n_n none l r (constant S512x2048 .f32 0x00000000#32) (ix2 a b) = ∑ k : Fin 64, l (ix2 a k) * r (ix2 b k) :=
  sum_of_one_axis dot_S512x64_S2048x64_S512x2048_1_1_0_0_n_n 64 rfl rfl l r (ix2 a b) (fun k => ix2 a k) (fun k => ix2 b k)
    (fun k => funext fun x => Fin.ext (by
      match x with
      | ⟨0, _⟩ => exact inner_query _ _
      | ⟨1, _⟩ => exact ((dot_S512x64_S2048x64_S512x2048_1_1_0_0_n_n.lhsIdx_val_of_single rfl _ _).trans (contrEquiv1_symm_val dot_S512x64_S2048x64_S512x2048_1_1_0_0_n_n 64 rfl rfl k))))
    (fun k => funext fun x => Fin.ext (by
      match x with
      | ⟨0, _⟩ => exact inner_other _ _
      | ⟨1, _⟩ => exact ((dot_S512x64_S2048x64_S512x2048_1_1_0_0_n_n.rhsIdx_val_of_single rfl _ _).trans (contrEquiv1_symm_val dot_S512x64_S2048x64_S512x2048_1_1_0_0_n_n 64 rfl rfl k))))

theorem weighted_query (j : S512x64.Idx) (q : dot_S512x2048_S2048x64_S512x64_1_0_0_1_n_n.contr.Idx) : (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem weighted_channel (j : S512x64.Idx) (q : dot_S512x2048_S2048x64_S512x64_1_0_0_1_n_n.contr.Idx) : (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The gates against all rows' features, over the 2048 rows. -/
theorem weighted_sum {φ₁ φ₂ : FTy} (l : FVec Ideal S512x2048 φ₁) (r : FVec Ideal S2048x64 φ₂) (a : Fin 512) (b : Fin 64) :
    matmul dot_S512x2048_S2048x64_S512x64_1_0_0_1_n_n none l r (constant S512x64 .f32 0x00000000#32) (ix2 a b) = ∑ k : Fin 2048, l (ix2 a k) * r (ix2 k b) :=
  sum_of_one_axis dot_S512x2048_S2048x64_S512x64_1_0_0_1_n_n 2048 rfl rfl l r (ix2 a b) (fun k => ix2 a k) (fun k => ix2 k b)
    (fun k => funext fun x => Fin.ext (by
      match x with
      | ⟨0, _⟩ => exact weighted_query _ _
      | ⟨1, _⟩ => exact ((dot_S512x2048_S2048x64_S512x64_1_0_0_1_n_n.lhsIdx_val_of_single rfl _ _).trans (contrEquiv1_symm_val dot_S512x2048_S2048x64_S512x64_1_0_0_1_n_n 2048 rfl rfl k))))
    (fun k => funext fun x => Fin.ext (by
      match x with
      | ⟨0, _⟩ => exact ((dot_S512x2048_S2048x64_S512x64_1_0_0_1_n_n.rhsIdx_val_of_single rfl _ _).trans (contrEquiv1_symm_val dot_S512x2048_S2048x64_S512x64_1_0_0_1_n_n 2048 rfl rfl k))
      | ⟨1, _⟩ => exact weighted_channel _ _))

end Cert.KernelIdeal.Contract

end
-- ==== Proof.KernelPayloads.lean ====
/-
  The body's arithmetic at an entry, on the extended reals.

  With `x` the batch's 2048 input rows, `xq` the 512 query rows, `w` the weights and `bias` the one bias row:
  the features of row `n` in channel `o` are (∑ k, x n k · w o k) + bias o, the same for a query row from `xq`; the gate of
  query row `r` against row `j` is max (tanh (∑ o, featq r o · feat j o)) 0; the mean of query row `r` in channel `o` is
  (∑ j, gate r j · feat j o) · 2⁻¹¹. Roundings to the narrow format are the identity here, and a leading axis of extent
  one is carried along unchanged.
-/
import proofs.«130392_j43379169689769_2_alg».proof.Proof.Gen.KernelIdeal.Skeleton
import proofs.«130392_j43379169689769_2_alg».proof.Proof.KernelContractions
import Idealize.ShloMosaic.Lib.Pipeline.Value
import Idealize.ShloMosaic.Lib.ValueLayout

noncomputable section

namespace Cert.KernelIdeal.Payloads

open Cert.KernelIdeal Cert.KernelIdeal.Gen Cert.KernelIdeal.Contract Idealize.ShloMosaic Idealize.ShloMosaic.ValueIdx

variable (w : Vec Ideal S64x128 .f32) (bias : Vec Ideal S1x64 .f32) (x : Vec Ideal S1x2048x128 .f32)
  (xq : Vec Ideal S1x512x128 .f32)

/-- The features of all 2048 rows. -/
theorem feats_apply (n : Fin 2048) (o : Fin 64) :
    k0_pay3 (F := Ideal) w bias x (ix2 n o)
      = (∑ k : Fin 128, x (ix3 (0 : Fin 1) n k) * w (ix2 o k)) + bias (ix2 (0 : Fin 1) o) := by
  unfold k0_pay3 k0_pay1 k0_pay2
  refine (truncf_apply (φ := .f32) (ψ := .bf16) _ _ _).trans ((addf_apply _ _ _).trans ?_)
  refine congrArg₂ (· + ·) ?_ ?_
  · refine (all_rows_project _ _ n o).trans (Finset.sum_congr rfl fun k _ => ?_)
    exact congrArg₂ (· * ·) (shapeCast_1ab_ab_apply x _ n k) rfl
  · refine (broadcastTo_1b_ab_apply _ _ n o).trans ?_
    exact congrFun (shapeCast_self bias _) _

/-- The gates of the 512 query rows against all rows. -/
theorem gates_apply (r : Fin 512) (j : Fin 2048) :
    k0_pay4 (F := Ideal) w bias x xq (ix2 r j)
      = max (Ideal.tanh (∑ o : Fin 64,
          ((∑ k : Fin 128, xq (ix3 (0 : Fin 1) r k) * w (ix2 o k)) + bias (ix2 (0 : Fin 1) o))
            * k0_pay3 (F := Ideal) w bias x (ix2 j o)))
        (Ideal.ofBits .f32 0x00000000#32) := by
  unfold k0_pay4 k0_pay1 k0_pay2
  refine (maximumf_apply _ _ _).trans ?_
  refine congrArg₂ max ?_ rfl
  show Ideal.tanh _ = Ideal.tanh _
  refine congrArg Ideal.tanh ?_
  refine (inner_products _ _ r j).trans (Finset.sum_congr rfl fun o _ => ?_)
  refine congrArg₂ (· * ·) ?_ rfl
  refine (truncf_apply (φ := .f32) (ψ := .bf16) _ _ _).trans ((addf_apply _ _ _).trans ?_)
  refine congrArg₂ (· + ·) ?_ ?_
  · refine (query_rows_project _ _ r o).trans (Finset.sum_congr rfl fun k _ => ?_)
    exact congrArg₂ (· * ·) (shapeCast_1ab_ab_apply xq _ r k) rfl
  · refine (broadcastTo_1b_ab_apply _ _ r o).trans ?_
    exact congrFun (shapeCast_self bias _) _

/-- What the first store writes: the gates, under a leading axis of extent one. -/
theorem gate_block_apply (u : Fin 1) (r : Fin 512) (j : Fin 2048) :
    k0_pay5 (F := Ideal) w bias x xq (ix3 u r j) = k0_pay4 (F := Ideal) w bias x xq (ix2 r j) := by
  unfold k0_pay5
  exact shapeCast_ab_1ab_apply _ _ u r j

/-- What the second store writes: the gate-weighted sums of all rows' features, times 2⁻¹¹, under a leading axis of
    extent one. -/
theorem mean_block_apply (u : Fin 1) (r : Fin 512) (o : Fin 64) :
    k0_pay6 (F := Ideal) w bias x xq (ix3 u r o)
      = (∑ j : Fin 2048, k0_pay4 (F := Ideal) w bias x xq (ix2 r j) * k0_pay3 (F := Ideal) w bias x (ix2 j o))
        * Ideal.ofBits .f32 0x3A000000#32 := by
  unfold k0_pay6
  refine (shapeCast_ab_1ab_apply _ _ u r o).trans ?_
  refine (mulf_apply _ _ _).trans ?_
  refine congrArg₂ (· * ·) ?_ rfl
  exact weighted_sum _ _ r o

end Cert.KernelIdeal.Payloads

end
-- ==== Proof.Spec.lean ====
/-
  The layer both programs compute, index by index on the extended reals.

  For a batch `p`, a node `n` and an output channel `o`, the FEATURE is the affine image of the node's input row,
      feat p n o = (∑ k, x p n k · w o k) + b o.
  The GATE between nodes `i` and `j` of one batch is the inner product of their features, squashed and clipped,
      gate p i j = max (tanh (∑ o, feat p i o · feat p j o)) 0,
  and the second result averages the features of all 2048 nodes with those gates as weights,
      mean p i o = (∑ j, gate p i j · feat p j o) / 2048.
  One program divides by 2048, the other multiplies by 2⁻¹¹; on the extended reals these are one function
  (`div_2048`), at the infinities too, because 2048 is a nonzero real and 2⁻¹¹ its exact reciprocal.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The feature of node `n` of batch `p` in channel `o`: the input row against the weight row, plus the bias. -/
def feat (x : Fin 8 → Fin 2048 → Fin 128 → EReal) (w : Fin 64 → Fin 128 → EReal) (b : Fin 64 → EReal)
    (p : Fin 8) (n : Fin 2048) (o : Fin 64) : EReal :=
  (∑ k : Fin 128, x p n k * w o k) + b o

/-- The gate between nodes `i` and `j` of batch `p`: their features' inner product through tanh, clipped below at zero. -/
def gate (x : Fin 8 → Fin 2048 → Fin 128 → EReal) (w : Fin 64 → Fin 128 → EReal) (b : Fin 64 → EReal)
    (p : Fin 8) (i j : Fin 2048) : EReal :=
  max (Ideal.tanh (∑ o : Fin 64, feat x w b p i o * feat x w b p j o)) (Ideal.ofBits .f32 0x00000000#32)

/-- The gate-weighted sum of all nodes' features, for node `i` in channel `o`. -/
def pooled (x : Fin 8 → Fin 2048 → Fin 128 → EReal) (w : Fin 64 → Fin 128 → EReal) (b : Fin 64 → EReal)
    (p : Fin 8) (i : Fin 2048) (o : Fin 64) : EReal :=
  ∑ j : Fin 2048, gate x w b p i j * feat x w b p j o

/-- Its mean over the 2048 nodes. -/
def mean (x : Fin 8 → Fin 2048 → Fin 128 → EReal) (w : Fin 64 → Fin 128 → EReal) (b : Fin 64 → EReal)
    (p : Fin 8) (i : Fin 2048) (o : Fin 64) : EReal :=
  Ideal.div (pooled x w b p i o) (Ideal.ofBits .f32 0x45000000#32)

/-! ## The same, over arrays -/

/-- An input array [8, 2048, 128] by coordinates. -/
abbrev inX (X : (⟨3, ![8, 2048, 128]⟩ : Shape).Idx → EReal) : Fin 8 → Fin 2048 → Fin 128 → EReal := fun p n k => X (ix3 p n k)
/-- A weight array [64, 128] by coordinates. -/
abbrev inW (W : (⟨2, ![64, 128]⟩ : Shape).Idx → EReal) : Fin 64 → Fin 128 → EReal := fun o k => W (ix2 o k)
/-- A bias array [64] by its coordinate. -/
abbrev inB (B : (⟨1, ![64]⟩ : Shape).Idx → EReal) : Fin 64 → EReal := fun o => B (ix1 o)

/-- The gates as an array [8, 2048, 2048]. -/
def gateArr (X : (⟨3, ![8, 2048, 128]⟩ : Shape).Idx → EReal) (W : (⟨2, ![64, 128]⟩ : Shape).Idx → EReal)
    (B : (⟨1, ![64]⟩ : Shape).Idx → EReal) : (⟨3, ![8, 2048, 2048]⟩ : Shape).Idx → EReal :=
  fun i => gate (inX X) (inW W) (inB B) (i 0) (i 1) (i 2)

/-- The means as an array [8, 2048, 64]. -/
def meanArr (X : (⟨3, ![8, 2048, 128]⟩ : Shape).Idx → EReal) (W : (⟨2, ![64, 128]⟩ : Shape).Idx → EReal)
    (B : (⟨1, ![64]⟩ : Shape).Idx → EReal) : (⟨3, ![8, 2048, 64]⟩ : Shape).Idx → EReal :=
  fun i => mean (inX X) (inW W) (inB B) (i 0) (i 1) (i 2)

/-! ## The two spellings of the mean -/

/-- The word `0x45000000` denotes the real 2048 = 2¹¹. -/
theorem word_2048 : Ideal.ofBits .f32 0x45000000#32 = ((2048 : ℝ) : EReal) := by
  simp [Ideal.ofBits, Ideal.ieee, -EReal.coe_mul]; norm_num

/-- The word `0x3A000000` denotes its reciprocal 2⁻¹¹, exactly. -/
theorem word_inv_2048 : Ideal.ofBits .f32 0x3A000000#32 = ((1 / 2048 : ℝ) : EReal) := by
  simp [Ideal.ofBits, Ideal.ieee, -EReal.coe_mul]; norm_num

/-- Dividing an extended real by 2048 is multiplying it by 2⁻¹¹: division by a nonzero real is the product with its
    reciprocal, at ±∞ as well. -/
theorem div_2048 (a : EReal) :
    Ideal.div a (Ideal.ofBits .f32 0x45000000#32) = a * Ideal.ofBits .f32 0x3A000000#32 := by
  rw [word_2048, word_inv_2048]
  exact Ideal.div_coe (by norm_num) a

end Cert.Spec

end
-- ==== Proof.KernelLayer.lean ====
/-
  One grid point's stored blocks are the specification's blocks.

  Suppose the body's buffers hold, for a batch `p` and a tile `q`: the weights `W`; the bias `B` as one row; the input's
  batch `p` (all 2048 rows); and rows 512·q … 512·q + 511 of that batch as the query rows. Then row `n`'s features are
  `feat p n`; query row `r`'s gates are `gate p (512·q + r)`; and its means are `mean p (512·q + r)`, the product with 2⁻¹¹
  being the quotient by 2048 (`div_2048`).
-/
import proofs.«130392_j43379169689769_2_alg».proof.Proof.KernelPayloads
import proofs.«130392_j43379169689769_2_alg».proof.Proof.Spec

noncomputable section

namespace Cert.KernelIdeal.Layer

open Cert.KernelIdeal Cert.KernelIdeal.Gen Cert.KernelIdeal.Payloads Idealize.ShloMosaic Idealize.ShloMosaic.ValueIdx Cert.Spec

variable (X : (⟨3, ![8, 2048, 128]⟩ : Shape).Idx → EReal) (W : (⟨2, ![64, 128]⟩ : Shape).Idx → EReal)
  (B : (⟨1, ![64]⟩ : Shape).Idx → EReal)
variable (w : Vec Ideal S64x128 .f32) (bias : Vec Ideal S1x64 .f32) (x : Vec Ideal S1x2048x128 .f32)
  (xq : Vec Ideal S1x512x128 .f32)

/-- Query row `r` of tile `q` is row 512·q + r of the batch. -/
abbrev tileRow (q : Fin 4) (r : Fin 512) : Fin 2048 := ⟨512 * q.val + r.val, by have := q.isLt; have := r.isLt; omega⟩

/-- All rows' features. -/
theorem feat_of_block (p : Fin 8)
    (hw : ∀ (o : Fin 64) (k : Fin 128), w (ix2 o k) = W (ix2 o k))
    (hb : ∀ o : Fin 64, bias (ix2 (0 : Fin 1) o) = B (ix1 o))
    (hx : ∀ (n : Fin 2048) (k : Fin 128), x (ix3 (0 : Fin 1) n k) = X (ix3 p n k))
    (n : Fin 2048) (o : Fin 64) :
    k0_pay3 (F := Ideal) w bias x (ix2 n o) = feat (inX X) (inW W) (inB B) p n o := by
  rw [feats_apply]
  unfold feat
  simp only [hw, hb, hx]

/-- The query rows' gates. -/
theorem gate_of_block (p : Fin 8) (q : Fin 4)
    (hw : ∀ (o : Fin 64) (k : Fin 128), w (ix2 o k) = W (ix2 o k))
    (hb : ∀ o : Fin 64, bias (ix2 (0 : Fin 1) o) = B (ix1 o))
    (hx : ∀ (n : Fin 2048) (k : Fin 128), x (ix3 (0 : Fin 1) n k) = X (ix3 p n k))
    (hxq : ∀ (r : Fin 512) (k : Fin 128), xq (ix3 (0 : Fin 1) r k) = X (ix3 p (tileRow q r) k))
    (r : Fin 512) (j : Fin 2048) :
    k0_pay4 (F := Ideal) w bias x xq (ix2 r j) = gate (inX X) (inW W) (inB B) p (tileRow q r) j := by
  rw [gates_apply]
  unfold gate
  simp only [feat_of_block X W B w bias x p hw hb hx]
  unfold feat
  simp only [hw, hb, hxq]

/-- The block the first store writes. -/
theorem gate_block (p : Fin 8) (q : Fin 4)
    (hw : ∀ (o : Fin 64) (k : Fin 128), w (ix2 o k) = W (ix2 o k))
    (hb : ∀ o : Fin 64, bias (ix2 (0 : Fin 1) o) = B (ix1 o))
    (hx : ∀ (n : Fin 2048) (k : Fin 128), x (ix3 (0 : Fin 1) n k) = X (ix3 p n k))
    (hxq : ∀ (r : Fin 512) (k : Fin 128), xq (ix3 (0 : Fin 1) r k) = X (ix3 p (tileRow q r) k))
    (u : Fin 1) (r : Fin 512) (j : Fin 2048) :
    k0_pay5 (F := Ideal) w bias x xq (ix3 u r j) = gate (inX X) (inW W) (inB B) p (tileRow q r) j := by
  rw [gate_block_apply, gate_of_block X W B w bias x xq p q hw hb hx hxq]

/-- The block the second store writes. -/
theorem mean_block (p : Fin 8) (q : Fin 4)
    (hw : ∀ (o : Fin 64) (k : Fin 128), w (ix2 o k) = W (ix2 o k))
    (hb : ∀ o : Fin 64, bias (ix2 (0 : Fin 1) o) = B (ix1 o))
    (hx : ∀ (n : Fin 2048) (k : Fin 128), x (ix3 (0 : Fin 1) n k) = X (ix3 p n k))
    (hxq : ∀ (r : Fin 512) (k : Fin 128), xq (ix3 (0 : Fin 1) r k) = X (ix3 p (tileRow q r) k))
    (u : Fin 1) (r : Fin 512) (o : Fin 64) :
    k0_pay6 (F := Ideal) w bias x xq (ix3 u r o) = mean (inX X) (inW W) (inB B) p (tileRow q r) o := by
  rw [mean_block_apply]
  unfold mean pooled
  rw [div_2048]
  simp only [gate_of_block X W B w bias x xq p q hw hb hx hxq, feat_of_block X W B w bias x p hw hb hx]

end Cert.KernelIdeal.Layer

end
-- ==== Proof.KernelArrays.lean ====
/-
  From grid points to whole arrays.

  The grid has 8 × 4 points; point `t` works on batch t / 4 and tile t % 4. There the input window holds the batch's 2048
  rows, the weight window the whole weight array, the bias window the bias as one row (the host reshapes the bias vector to
  one row before the call), and the body's query rows are rows 512·(t % 4) … of the batch. Each output window's block at
  `t` is batch t / 4, rows 512·(t % 4) … 512·(t % 4) + 511, all columns, written back at every point; so what a point writes
  back is that block of the specification's array, the 32 blocks tile each output array, and each array ends holding the
  specification's array.
-/
import proofs.«130392_j43379169689769_2_alg».proof.Proof.Gen.KernelIdeal.Value
import proofs.«130392_j43379169689769_2_alg».proof.Proof.KernelStores
import proofs.«130392_j43379169689769_2_alg».proof.Proof.KernelLayer
import Idealize.ShloMosaic.Lib.Pipeline.Value
import Idealize.ShloMosaic.Lib.ValueLayout
import Idealize.ShloMosaic.Lib.StableHlo.Run

set_option maxRecDepth 16384

noncomputable section

namespace Cert.KernelIdeal.Arrays

open Cert.KernelIdeal Cert.KernelIdeal.Gen Cert.KernelIdeal.Stores Cert.KernelIdeal.Layer
open Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

/-- The printed index maps, decided over the 32 grid points: the batch is t / 4 and the tile t % 4. -/
theorem point_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0
    ∧ (grid0.coords t 1).val = t.val % 4 :=
  (by decide +kernel : ∀ t : Fin grid0.N, _)

/-- The batch of point `t`. -/
abbrev batchOf (t : Fin cfg0.N) : Fin 8 := ⟨t.val / 4, by have h : t.val < 32 := lt_of_lt_of_eq t.isLt N_0; omega⟩
/-- The tile of point `t`. -/
abbrev tileOf (t : Fin cfg0.N) : Fin 4 := ⟨t.val % 4, by omega⟩

/-- The weight window's block is the whole weight array. -/
theorem weights_block (c : Dev nD) (t : Fin cfg0.N) (o : Fin 64) (k : Fin 128) :
    (iblk m c 1 t : Vec Ideal S64x128 .f32) (ix2 o k) = m ((c : Thread nD τ).loc main_arg1) (ix2 o k) := by
  obtain ⟨-, -, -, e0, e1, -⟩ := point_facts t
  show V m c main_arg1 (((cfg0.win 1).blk t).view.emb (ix2 o k)) = _
  rw [V_main_arg1]
  refine congrArg _ (funext fun a => Fin.ext ?_)
  match a with
  | ⟨0, _⟩ => show win0_1.index t (0 : Fin 2) * 64 + 1 * o.val = o.val; omega
  | ⟨1, _⟩ => show win0_1.index t (1 : Fin 2) * 128 + 1 * k.val = k.val; omega

/-- The input window's block is the point's batch. -/
theorem input_block (c : Dev nD) (t : Fin cfg0.N) (n : Fin 2048) (k : Fin 128) :
    (iblk m c 0 t : Vec Ideal S1x2048x128 .f32) (ix3 (0 : Fin 1) n k) = m ((c : Thread nD τ).loc main_arg0) (ix3 (batchOf t) n k) := by
  obtain ⟨e0, e1, e2, -⟩ := point_facts t
  show V m c main_arg0 (((cfg0.win 0).blk t).view.emb (ix3 (0 : Fin 1) n k)) = _
  rw [V_main_arg0]
  refine congrArg _ (funext fun a => Fin.ext ?_)
  match a with
  | ⟨0, _⟩ => show win0_0.index t (0 : Fin 3) * 1 + 1 * 0 = t.val / 4; omega
  | ⟨1, _⟩ => show win0_0.index t (1 : Fin 3) * 2048 + 1 * n.val = n.val; omega
  | ⟨2, _⟩ => show win0_0.index t (2 : Fin 3) * 128 + 1 * k.val = k.val; omega

/-- The body's query rows are the tile's 512 rows of the batch. -/
theorem query_block (c : Dev nD) (t : Fin cfg0.N) (r : Fin 512) (k : Fin 128) :
    queryRows (grid0.coords t) (iblk m c 0 t : Vec Ideal S1x2048x128 .f32) (ix3 (0 : Fin 1) r k)
      = m ((c : Thread nD τ).loc main_arg0) (ix3 (batchOf t) (tileRow (tileOf t) r) k) := by
  obtain ⟨e0, e1, e2, -, -, -, -, -, -, -, -, -, -, eq⟩ := point_facts t
  have hoff := k0_off1_eq (grid0.coords t)
  show V m c main_arg0 (((cfg0.win 0).blk t).view.emb
    ((Rect.unit (s := S1x2048x128) (k0_off1 (grid0.coords t)) S1x512x128.size (k0_off1_inb (grid0.coords t))).idx (ix3 (0 : Fin 1) r k))) = _
  rw [V_main_arg0]
  refine congrArg _ (funext fun a => Fin.ext ?_)
  match a with
  | ⟨0, _⟩ => show win0_0.index t (0 : Fin 3) * 1 + 1 * (k0_off1 (grid0.coords t) 0 + 1 * 0) = t.val / 4
              rw [hoff]; show win0_0.index t (0 : Fin 3) * 1 + 1 * (0 + 1 * 0) = t.val / 4; omega
  | ⟨1, _⟩ => show win0_0.index t (1 : Fin 3) * 2048 + 1 * (k0_off1 (grid0.coords t) 1 + 1 * r.val) = 512 * (t.val % 4) + r.val
              rw [hoff]; show win0_0.index t (1 : Fin 3) * 2048 + 1 * (512 * (grid0.coords t 1).val + 1 * r.val) = 512 * (t.val % 4) + r.val; omega
  | ⟨2, _⟩ => show win0_0.index t (2 : Fin 3) * 128 + 1 * (k0_off1 (grid0.coords t) 2 + 1 * k.val) = k.val
              rw [hoff]; show win0_0.index t (2 : Fin 3) * 128 + 1 * (0 + 1 * k.val) = k.val; omega

/-- Before the call the host reshapes the bias vector to one row. -/
theorem bias_row (c : Dev nD) :
    (V m c main_v0 : S1x64.Idx → EReal) = shapeCast S1x64 (m ((c : Thread nD τ).loc main_arg2)) shapeCasts_S64_S1x64 := by
  dsimp only [V, hostOps0]
  after_results
  rfl

/-- The bias window's block is that row. -/
theorem bias_block (c : Dev nD) (t : Fin cfg0.N) (o : Fin 64) :
    (iblk m c 2 t : Vec Ideal S1x64 .f32) (ix2 (0 : Fin 1) o) = m ((c : Thread nD τ).loc main_arg2) (ix1 o) := by
  obtain ⟨-, -, -, -, -, e0, e1, -⟩ := point_facts t
  show V m c main_v0 (((cfg0.win 2).blk t).view.emb (ix2 (0 : Fin 1) o)) = _
  have e : ((cfg0.win 2).blk t).view.emb (ix2 (0 : Fin 1) o) = ix2 (0 : Fin 1) o := funext fun a => Fin.ext (by
    match a with
    | ⟨0, _⟩ => show win0_2.index t (0 : Fin 2) * 1 + 1 * 0 = 0; omega
    | ⟨1, _⟩ => show win0_2.index t (1 : Fin 2) * 64 + 1 * o.val = o.val; omega)
  rw [e, bias_row]
  exact shapeCast_a_1a_apply _ _ (0 : Fin 1) o

/-! ## What a point writes back -/

/-- The argument arrays, as the specification reads them. -/
abbrev argX (c : Dev nD) : (⟨3, ![8, 2048, 128]⟩ : Shape).Idx → EReal := m ((c : Thread nD τ).loc main_arg0)
abbrev argW (c : Dev nD) : (⟨2, ![64, 128]⟩ : Shape).Idx → EReal := m ((c : Thread nD τ).loc main_arg1)
abbrev argB (c : Dev nD) : (⟨1, ![64]⟩ : Shape).Idx → EReal := m ((c : Thread nD τ).loc main_arg2)

/-- Point `t` writes back to the first output its block of the gates. -/
theorem gates_flushed (c : Dev nD) (t : Fin cfg0.N) :
    (dats m 0 c).flushed 3 t
      = ((cfg0.win 3).blk t).view.read (Elt Ideal) (gateArr (argX m c) (argW m c) (argB m c)) := by
  rw [Value.flushed3_A, gates_stored]
  obtain ⟨-, -, -, -, -, -, -, e0, e1, e2, -⟩ := point_facts t
  funext y
  obtain ⟨u, r, j, rfl⟩ : ∃ (u : Fin 1) (r : Fin 512) (j : Fin 2048), y = ix3 u r j := ⟨y 0, y 1, y 2, eq_ix3 y⟩
  show k0_pay5 (F := Ideal) (iblk m c 1 t) (iblk m c 2 t) (iblk m c 0 t) (queryRows (grid0.coords t) (iblk m c 0 t)) (ix3 u r j)
    = gateArr (argX m c) (argW m c) (argB m c) (((cfg0.win 3).blk t).view.emb (ix3 u r j))
  refine (gate_block (argX m c) (argW m c) (argB m c) (iblk m c 1 t) (iblk m c 2 t) (iblk m c 0 t)
    (queryRows (grid0.coords t) (iblk m c 0 t)) (batchOf t) (tileOf t) (weights_block m c t) (bias_block m c t)
    (input_block m c t) (query_block m c t) u r j).trans ?_
  have e : ((cfg0.win 3).blk t).view.emb (ix3 u r j) = ix3 (batchOf t) (tileRow (tileOf t) r) j := funext fun a => Fin.ext (by
    have hu : u.val = 0 := by omega
    match a with
    | ⟨0, _⟩ => show win0_3.index t (0 : Fin 3) * 1 + 1 * u.val = t.val / 4; omega
    | ⟨1, _⟩ => show win0_3.index t (1 : Fin 3) * 512 + 1 * r.val = 512 * (t.val % 4) + r.val; omega
    | ⟨2, _⟩ => show win0_3.index t (2 : Fin 3) * 2048 + 1 * j.val = j.val; omega)
  rw [e]
  rfl

/-- Point `t` writes back to the second output its block of the means. -/
theorem means_flushed (c : Dev nD) (t : Fin cfg0.N) :
    (dats m 0 c).flushed 4 t
      = ((cfg0.win 4).blk t).view.read (Elt Ideal) (meanArr (argX m c) (argW m c) (argB m c)) := by
  rw [Value.flushed4_A, means_stored]
  obtain ⟨-, -, -, -, -, -, -, -, -, -, e0, e1, e2, -⟩ := point_facts t
  funext y
  obtain ⟨u, r, o, rfl⟩ : ∃ (u : Fin 1) (r : Fin 512) (o : Fin 64), y = ix3 u r o := ⟨y 0, y 1, y 2, eq_ix3 y⟩
  show k0_pay6 (F := Ideal) (iblk m c 1 t) (iblk m c 2 t) (iblk m c 0 t) (queryRows (grid0.coords t) (iblk m c 0 t)) (ix3 u r o)
    = meanArr (argX m c) (argW m c) (argB m c) (((cfg0.win 4).blk t).view.emb (ix3 u r o))
  refine (mean_block (argX m c) (argW m c) (argB m c) (iblk m c 1 t) (iblk m c 2 t) (iblk m c 0 t)
    (queryRows (grid0.coords t) (iblk m c 0 t)) (batchOf t) (tileOf t) (weights_block m c t) (bias_block m c t)
    (input_block m c t) (query_block m c t) u r o).trans ?_
  have e : ((cfg0.win 4).blk t).view.emb (ix3 u r o) = ix3 (batchOf t) (tileRow (tileOf t) r) o := funext fun a => Fin.ext (by
    have hu : u.val = 0 := by omega
    match a with
    | ⟨0, _⟩ => show win0_4.index t (0 : Fin 3) * 1 + 1 * u.val = t.val / 4; omega
    | ⟨1, _⟩ => show win0_4.index t (1 : Fin 3) * 512 + 1 * r.val = 512 * (t.val % 4) + r.val; omega
    | ⟨2, _⟩ => show win0_4.index t (2 : Fin 3) * 64 + 1 * o.val = o.val; omega)
  rw [e]
  rfl

/-! ## The blocks tile the arrays -/

/-- An index of the first output is in point `t`'s block iff each coordinate is in the block's range. -/
theorem mem_gate_block (t : Fin cfg0.N) (i : S8x2048x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v1_0).slice (win0_3.rect t)).set ↔ _
  rw [View.set_slice_whole, Rect.mem_set_unit]
  exact Iff.rfl

/-- The same for the second output. -/
theorem mem_mean_block (t : Fin cfg0.N) (i : S8x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v1_1).slice (win0_4.rect t)).set ↔ _
  rw [View.set_slice_whole, Rect.mem_set_unit]
  exact Iff.rfl

/-- The point that covers batch `b`, row `n`: 4·b + n / 512. -/
abbrev pointOf (b n : Nat) (hb : b < 8) (hn : n < 2048) : Fin cfg0.N :=
  ⟨4 * b + n / 512, lt_of_lt_of_eq (by omega : 4 * b + n / 512 < 32) N_0.symm⟩

/-- Every index of the first output is in some point's block. -/
theorem gates_covered (i : S8x2048x2048.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 2048 := (i 2).isLt
  refine ⟨pointOf (i 0).val (i 1).val h0 h1, flush0_3 _, ?_⟩
  rw [mem_gate_block]
  obtain ⟨-, -, -, -, -, -, -, e0, e1, e2, -⟩ := point_facts (pointOf (i 0).val (i 1).val h0 h1)
  have ht : (pointOf (i 0).val (i 1).val h0 h1).val = 4 * (i 0).val + (i 1).val / 512 := rfl
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 512 ≤ (i 1).val ∧ (i 1).val < win0_3.index _ (1 : Fin 3) * 512 + 512; omega
  | ⟨2, _⟩ => show win0_3.index _ (2 : Fin 3) * 2048 ≤ (i 2).val ∧ (i 2).val < win0_3.index _ (2 : Fin 3) * 2048 + 2048; omega

/-- Every index of the second output is in some point's block. -/
theorem means_covered (i : S8x2048x64.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 64 := (i 2).isLt
  refine ⟨pointOf (i 0).val (i 1).val h0 h1, flush0_4 _, ?_⟩
  rw [mem_mean_block]
  obtain ⟨-, -, -, -, -, -, -, -, -, -, e0, e1, e2, -⟩ := point_facts (pointOf (i 0).val (i 1).val h0 h1)
  have ht : (pointOf (i 0).val (i 1).val h0 h1).val = 4 * (i 0).val + (i 1).val / 512 := rfl
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 512 ≤ (i 1).val ∧ (i 1).val < win0_4.index _ (1 : Fin 3) * 512 + 512; omega
  | ⟨2, _⟩ => show win0_4.index _ (2 : Fin 3) * 64 ≤ (i 2).val ∧ (i 2).val < win0_4.index _ (2 : Fin 3) * 64 + 64; omega

/-! ## The arrays after the run -/

/-- The first output ends holding the gates. -/
theorem gates_final (c : Dev nD) : (dats m 0 c).arrAt 3 cfg0.N = gateArr (argX m c) (argW m c) (argB m c) :=
  (dats m 0 c).arrAt_eq_of_cover 3 (gateArr (argX m c) (argW m c) (argB m c)) (fun t _ => gates_flushed m c t) gates_covered

/-- The second output ends holding the means. -/
theorem means_final (c : Dev nD) : (dats m 0 c).arrAt 4 cfg0.N = meanArr (argX m c) (argW m c) (argB m c) :=
  (dats m 0 c).arrAt_eq_of_cover 4 (meanArr (argX m c) (argW m c) (argB m c)) (fun t _ => means_flushed m c t) means_covered

/-- Every weakly fair execution ends with the means and the gates of the argument arrays in the two results, the
    arguments unchanged. -/
theorem run : θ_run defs (onTc (τ := τ) (main (F := Ideal))) ⟨m, fun _ => 0, ρ⟩ fun r => ∀ c : Dev nD,
      r.2.mem ((c : Thread nD τ).loc main_v1_1) = meanArr (argX m c) (argW m c) (argB m c)
      ∧ r.2.mem ((c : Thread nD τ).loc main_v1_0) = gateArr (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).2.1.trans (means_final m c), (h c).1.trans (gates_final m c),
      (h c).2.2.1, (h c).2.2.2.1, (h c).2.2.2.2⟩)
    (Value.run_blocks m ρ)

end Cert.KernelIdeal.Arrays

end
-- ==== Proof.ReferenceLayer.lean ====
/-
  The reference computes the layer of the specification.

  Its host program is three contractions with elementwise operations between them: the input against the weights over
  the 128 input channels, plus the bias broadcast over batches and nodes (the features); the features against
  themselves over the 64 channels within a batch, through tanh and a maximum with zero (the gates); the gates against
  the features over the 2048 nodes, divided by 2048 (the means). Read at an index, each stage is the specification's
  term at that index's coordinates: the index maps of the contractions pick (batch, node, channel) exactly as
  `feat`, `gate` and `pooled` do.
-/
import proofs.«130392_j43379169689769_2_alg».proof.Proof.Gen.ReferenceIdeal.Read
import proofs.«130392_j43379169689769_2_alg».proof.Proof.Spec

noncomputable section

namespace Cert.ReferenceIdeal.Layer

open Cert.ReferenceIdeal Cert.ReferenceIdeal.Gen Cert.ReferenceIdeal.Read Idealize.ShloMosaic Idealize.ShloMosaic.ValueIdx Cert.Spec

variable (x0 : (⟨S8x2048x128, .f32⟩ : BufTy).Contents (Elt Ideal)) (x1 : (⟨S64x128, .f32⟩ : BufTy).Contents (Elt Ideal))
  (x2 : (⟨S64, .f32⟩ : BufTy).Contents (Elt Ideal))

/-- The first contraction reads the input at (batch, node, k) … -/
theorem input_at (j : S8x2048x64.Idx) (k : Fin 128) : lidx_main_v0 j k = ix3 (j 0) (j 1) k :=
  funext fun a => Fin.ext (by match a with | ⟨0, _⟩ => rfl | ⟨1, _⟩ => rfl | ⟨2, _⟩ => rfl)

/-- … and the weights at (channel, k). -/
theorem weight_at (j : S8x2048x64.Idx) (k : Fin 128) : ridx_main_v0 j k = ix2 (j 2) k :=
  funext fun a => Fin.ext (by match a with | ⟨0, _⟩ => rfl | ⟨1, _⟩ => rfl)

/-- The two broadcasts of the bias read it at the channel. -/
theorem bias_at (j : S8x2048x64.Idx) : idx_main_v1 (idx_main_v2 j) = ix1 (j 2) :=
  funext fun a => Fin.ext (by match a with | ⟨0, _⟩ => rfl)

/-- The features: the first contraction plus the broadcast bias. -/
theorem feat_read (j : S8x2048x64.Idx) :
    val_main_v3 (F := Ideal) x0 x1 x2 j = feat (inX x0) (inW x1) (inB x2) (j 0) (j 1) (j 2) := by
  rw [val_main_v3_apply, val_main_v0_apply, val_main_v2_apply, val_main_v1_apply]
  simp only [input_at, weight_at, bias_at, Ideal.addf_def]
  rfl

/-- The gates: the features' inner product within a batch, through tanh, clipped at zero. -/
theorem gate_read (i : S8x2048x2048.Idx) :
    val_main_v6 (F := Ideal) x0 x1 x2 i = gate (inX x0) (inW x1) (inB x2) (i 0) (i 1) (i 2) := by
  rw [val_main_v6_apply, val_main_v5_apply, val_main_v4_apply, val_main_call0_v0_apply, val_main_call0_cst_apply]
  simp only [feat_read, Ideal.maximumf_def, Ideal.hostUnary_tanh_def, Ideal.ofBits_def]
  rfl

/-- The means: the gates against the features over the nodes, divided by 2048. -/
theorem mean_read (i : S8x2048x64.Idx) :
    val_main_v9 (F := Ideal) x0 x1 x2 i = mean (inX x0) (inW x1) (inB x2) (i 0) (i 1) (i 2) := by
  rw [val_main_v9_apply, val_main_v7_apply, val_main_v8_apply, val_main_cst_apply]
  simp only [gate_read, feat_read, Ideal.hostDivf_def, Ideal.ofBits_def]
  rfl

/-- The reference's two results are the specification's two arrays. -/
theorem gates_eq : val_main_v6 (F := Ideal) x0 x1 x2 = gateArr x0 x1 x2 := funext (gate_read x0 x1 x2)
theorem means_eq : val_main_v9 (F := Ideal) x0 x1 x2 = meanArr x0 x1 x2 := funext (mean_read x0 x1 x2)

end Cert.ReferenceIdeal.Layer

end
-- ==== Proof.lean ====
/-
  The certificate of a graph layer against its reference, over the extended reals.

  Both programs take an input x : [8, 2048, 128], weights w : [64, 128] and a bias b : [64], and return, per batch,
    the gates   max (tanh (e eᵀ)) 0 : [2048, 2048]   and   the means   (gates · e) / 2048 : [2048, 64],
  where e = x wᵀ + b : [2048, 64] are the nodes' features. The kernel computes them tile by tile (512 rows of a batch per
  grid point, the batch's whole features recomputed at each point) and multiplies by 2⁻¹¹ where the reference divides by
  2048; on the extended reals, with changes of float format the identity and every contraction the plain sum of products,
  the two are one function of the arguments, index by index — no finiteness of the inputs is used.

  The three frame claims are the generated frames (the reference's is its generated run with the results dropped); the
  idealization rewrote nothing; the value claim sets the kernel's run (its two arrays after the run, block by block) beside
  the reference's run, both read as the specification's arrays.
-/
import proofs.«130392_j43379169689769_2_alg».proof.Defs
import proofs.«130392_j43379169689769_2_alg».proof.Proof.Gen.Kernel
import proofs.«130392_j43379169689769_2_alg».proof.Proof.Gen.Kernel.Skeleton
import proofs.«130392_j43379169689769_2_alg».proof.Proof.Gen.Kernel.Launch
import proofs.«130392_j43379169689769_2_alg».proof.Proof.Gen.Kernel.Points
import proofs.«130392_j43379169689769_2_alg».proof.Proof.Gen.Kernel.Frame
import proofs.«130392_j43379169689769_2_alg».proof.Proof.Gen.KernelIdeal
import proofs.«130392_j43379169689769_2_alg».proof.Proof.Gen.KernelIdeal.Skeleton
import proofs.«130392_j43379169689769_2_alg».proof.Proof.Gen.KernelIdeal.Launch
import proofs.«130392_j43379169689769_2_alg».proof.Proof.Gen.KernelIdeal.Points
import proofs.«130392_j43379169689769_2_alg».proof.Proof.Gen.KernelIdeal.Frame
import proofs.«130392_j43379169689769_2_alg».proof.Proof.Gen.ReferenceIdeal
import proofs.«130392_j43379169689769_2_alg».proof.Proof.Gen.Pre_finite_inputs
import proofs.«130392_j43379169689769_2_alg».proof.Proof.Gen.KernelIdeal.Value
import proofs.«130392_j43379169689769_2_alg».proof.Proof.Gen.ReferenceIdeal.Run
import proofs.«130392_j43379169689769_2_alg».proof.Proof.Gen.ReferenceIdeal.Read
import proofs.«130392_j43379169689769_2_alg».proof.Proof.KernelArrays
import proofs.«130392_j43379169689769_2_alg».proof.Proof.ReferenceLayer
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On the extended reals the kernel's two result arrays end at the means and the gates of its arguments, and the
    reference's at the same two arrays of arguments that agree. -/
theorem algebraic : Cert.algebraic_KernelIdeal_ReferenceIdeal := by
  intro m ρ m' ρ' _ hagree
  refine ⟨fun c => Cert.Spec.meanArr (Cert.KernelIdeal.Arrays.argX m c) (Cert.KernelIdeal.Arrays.argW m c) (Cert.KernelIdeal.Arrays.argB m c),
    fun c => Cert.Spec.gateArr (Cert.KernelIdeal.Arrays.argX m c) (Cert.KernelIdeal.Arrays.argW m c) (Cert.KernelIdeal.Arrays.argB m c),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v9_eq, Cert.ReferenceIdeal.Layer.means_eq, (hagree c).1, (hagree c).2.1, (hagree c).2.2]
  · rw [Cert.ReferenceIdeal.Read.val_main_v6_eq, Cert.ReferenceIdeal.Layer.gates_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
